-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S8192x256 : Shape := ⟨2, ![8192, 256]⟩
abbrev S4096 : Shape := ⟨1, ![4096]⟩
abbrev S8192 : Shape := ⟨1, ![8192]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S4096x256 .f32) (main_arg1 : FVec F S8192x256 .f32) (main_arg2 : IVec S4096 32) (main_arg3 : IVec S8192 32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S4096 : Shape := ⟨1, ![4096]⟩
abbrev S8192 : Shape := ⟨1, ![8192]⟩
abbrev S_ : Shape := ⟨0, ![]⟩
abbrev S4096x1 : Shape := ⟨2, ![4096, 1]⟩
abbrev S8192x1 : Shape := ⟨2, ![8192, 1]⟩
abbrev S256x8192 : Shape := ⟨2, ![256, 8192]⟩
abbrev S1x8192 : Shape := ⟨2, ![1, 8192]⟩
abbrev S4x1x1 : Shape := ⟨3, ![4, 1, 1]⟩
abbrev S1024x256 : Shape := ⟨2, ![1024, 256]⟩
abbrev S256x1024 : Shape := ⟨2, ![256, 1024]⟩
abbrev S1024x1 : Shape := ⟨2, ![1024, 1]⟩
abbrev S1x1024 : Shape := ⟨2, ![1, 1024]⟩
abbrev S1x1x1 : Shape := ⟨3, ![1, 1, 1]⟩
abbrev S1x1 : Shape := ⟨2, ![1, 1]⟩
abbrev S1024x1024 : Shape := ⟨2, ![1024, 1024]⟩
abbrev S1024 : Shape := ⟨1, ![1024]⟩
abbrev S1 : Shape := ⟨1, ![1]⟩

abbrev nBuf : Space → Nat
  | .hbm => 34
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S8192x256, .f32⟩
  | .hbm, ⟨2, _⟩ => ⟨S4096, .i32⟩
  | .hbm, ⟨3, _⟩ => ⟨S8192, .i32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x256, .f32⟩
  | .hbm, ⟨13, _⟩ => ⟨S4096x256, .f32⟩
  | .hbm, ⟨14, _⟩ => ⟨S4096x256, .bf16⟩
  | .hbm, ⟨15, _⟩ => ⟨S8192x256, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x256, .f32⟩
  | .hbm, ⟨24, _⟩ => ⟨S8192x256, .f32⟩
  | .hbm, ⟨25, _⟩ => ⟨S256x8192, .f32⟩
  | .hbm, ⟨26, _⟩ => ⟨S256x8192, .bf16⟩
  | .hbm, ⟨27, _⟩ => ⟨S4096x1, .i32⟩
  | .hbm, ⟨28, _⟩ => ⟨S1x8192, .i32⟩
  | .hbm, ⟨29, _⟩ => ⟨S4x1x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bitsLt_bf16_f32 : FTy.bits .bf16 < FTy.bits .f32
  reducesTo_S8192x256_S8192_d1 : S8192x256.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  shapeCasts_S4096_S4096x1 : S4096.ShapeCasts S4096x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S4x1x1_S_d0_1_2 : S4x1x1.ReducesTo [0, 1, 2] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .bf16 = 32 ∨ (Rect.block (s := S4096x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x8192.size a
  hwx0_1 : ∀ i : grid0.Coords, EltTy.bits .bf16 = 32 ∨ (Rect.block (s := S256x8192) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .i32 = 32 ∨ (Rect.block (s := S4096x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S4x1x1.size a
  hwx0_4 : ∀ i : grid0.Coords, EltTy.bits .f32 = 32 ∨ (Rect.block (s := S4x1x1) S1x1x1.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v8) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S4096 : Shape := ⟨1, ![4096]⟩
abbrev S8192 : Shape := ⟨1, ![8192]⟩
abbrev S_ : Shape := ⟨0, ![]⟩
abbrev S4096x1 : Shape := ⟨2, ![4096, 1]⟩
abbrev S8192x1 : Shape := ⟨2, ![8192, 1]⟩
abbrev S256x8192 : Shape := ⟨2, ![256, 8192]⟩
abbrev S4096x8192 : Shape := ⟨2, ![4096, 8192]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S8192x256, .f32⟩
  | .hbm, ⟨2, _⟩ => ⟨S4096, .i32⟩
  | .hbm, ⟨3, _⟩ => ⟨S8192, .i32⟩
  | .hbm, ⟨4, _⟩ => ⟨S4096x256, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x256, .f32⟩
  | .hbm, ⟨13, _⟩ => ⟨S4096x256, .f32⟩
  | .hbm, ⟨14, _⟩ => ⟨S8192x256, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x256, .f32⟩
  | .hbm, ⟨23, _⟩ => ⟨S8192x256, .f32⟩
  | .hbm, ⟨24, _⟩ => ⟨S256x8192, .f32⟩
  | .hbm, ⟨25, _⟩ => ⟨S4096x8192, .f32⟩
  | .hbm, ⟨26, _⟩ => ⟨S4096x1, .i32⟩
  | .hbm, ⟨27, _⟩ => ⟨S1x8192, .i32⟩
  | .hbm, ⟨28, _⟩ => ⟨S4096x8192, .i32⟩
  | .hbm, ⟨29, _⟩ => ⟨S4096x8192, .i32⟩
  | .hbm, ⟨30, _⟩ => ⟨S4096x8192, .i1⟩
  | .hbm, ⟨31, _⟩ => ⟨S_, .f32⟩
  | .hbm, ⟨32, _⟩ => ⟨S_, .f32⟩
  | .hbm, ⟨33, _⟩ => ⟨S4096x8192, .f32⟩
  | .hbm, ⟨34, _⟩ => ⟨S4096x8192, .f32⟩
  | .hbm, ⟨35, _⟩ => ⟨S4096x8192, .f32⟩
  | .hbm, ⟨36, _⟩ => ⟨S4096x8192, .f32⟩
  | .hbm, ⟨37, _⟩ => ⟨S4096x8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  reducesTo_S8192x256_S8192_d1 : S8192x256.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S8192_S1x8192_1 : S8192.BroadcastsInDim S1x8192 (![1] : Fin 1 → Fin S1x8192.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  reducesTo_S4096x8192_S_d0_1 : S4096x8192.ReducesTo [0, 1] S_
  dot_S4096x256_S256x8192_S4096x8192_1_0_0_1_n_n_wf : DotDims.WF S4096x256 S256x8192 S4096x8192 [1] [0] [0] [1] [] []

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf

class Facts : Prop extends Facts₀ where

variable [Facts]
-- ==== Proof.Spec.lean ====
/-
  The mathematics of the ranking loss, with no program in sight.

  For query rows and database columns the loss is  margin + ∑ₐ ∑_b ± sim a b,  the sign being + where the two
  identifiers agree and - where they differ.  One side multiplies the similarity by a selected ±1; the other selects
  between the similarity and zero minus it: over the extended reals these are one number (`mul_select_sign`).
  One side sums over all pairs at once; the other cuts the 4096 × 8192 pairs into 4 × 8 tiles of 1024 × 1024, sums
  each tile, adds the eight tiles of a row of tiles one after the other from zero, and then adds the four rows of
  tiles: addition of extended reals is commutative and associative, so both are the same sum (`sum_tiles`,
  `accum_closed`).  No finiteness is needed anywhere.
-/
import Idealize.ShloMosaic.PureOps.Ideal
import Idealize.ShloMosaic.PureOps.Ideal.Laws
import Idealize.ShloMosaic.Lib.ValueIdx
import Idealize.ShloMosaic.Lib.IdealHost

noncomputable section

open scoped BigOperators
open Idealize.ShloMosaic Idealize.ShloMosaic.ValueIdx

namespace Cert.RankLoss

/-- The f32 pattern of -1.0 is the extended real minus one. -/
theorem ofBits_neg_one_f32 : Ideal.ofBits .f32 0xBF800000#32 = -1 := by
  have h : Ideal.ofBits .f32 0xBF800000#32 = ((-(1 : ℝ) : ℝ) : EReal) := by
    simp [Ideal.ofBits, Ideal.ieee, -EReal.coe_mul, -EReal.coe_neg]; norm_num
  rw [h, EReal.coe_neg, EReal.coe_one]

/-- Multiplying by a selected sign is selecting between the number and zero minus it. -/
theorem mul_select_sign (c : BitVec 1) (s : EReal) :
    s * Scalar.select c (1 : EReal) (-1) = Scalar.select c s (0 - s) := by
  unfold Scalar.select
  split
  · rw [mul_one]
  · rw [zero_sub, mul_neg, mul_one]

/-! ## Tiles -/

/-- Row `r` of row-tile `i` (reduced modulo the extent, so that it is total; for `i < 4` nothing is reduced). -/
def rowOf (i : ℕ) (r : Fin 1024) : Fin 4096 := ⟨(1024 * i + r.val) % 4096, Nat.mod_lt _ (by norm_num)⟩
/-- Column `c` of column-tile `j` (likewise; for `j < 8` nothing is reduced). -/
def colOf (j : ℕ) (c : Fin 1024) : Fin 8192 := ⟨(1024 * j + c.val) % 8192, Nat.mod_lt _ (by norm_num)⟩

/-- The sum of `f` over tile `(i, j)`: rows first, then the columns of each row. -/
def tile (f : Fin 4096 → Fin 8192 → EReal) (i j : ℕ) : EReal :=
  ∑ r : Fin 1024, ∑ c : Fin 1024, f (rowOf i r) (colOf j c)

/-- A sum over `m * n` positions is the sum over `m` blocks of the sums over the `n` positions of each. -/
theorem sum_blocks {M : Type*} [AddCommMonoid M] (m n N : ℕ) (h : m * n = N) (g : Fin N → M) :
    ∑ a, g a = ∑ i : Fin m, ∑ r : Fin n, g ⟨r.val + n * i.val, by
      have := r.isLt; have := i.isLt; subst h
      calc r.val + n * i.val < n + n * i.val := by omega
        _ = n * (i.val + 1) := by ring
        _ ≤ n * m := Nat.mul_le_mul_left n (by omega)
        _ = m * n := Nat.mul_comm n m⟩ := by
  subst h
  rw [← Equiv.sum_comp finProdFinEquiv g, Fintype.sum_prod_type]
  rfl

theorem rowOf_eq (i : Fin 4) (r : Fin 1024) (h : r.val + 1024 * i.val < 4096) :
    (⟨r.val + 1024 * i.val, h⟩ : Fin 4096) = rowOf i.val r := by
  apply Fin.ext
  have := i.isLt; have := r.isLt
  simp only [rowOf]; omega

theorem colOf_eq (j : Fin 8) (c : Fin 1024) (h : c.val + 1024 * j.val < 8192) :
    (⟨c.val + 1024 * j.val, h⟩ : Fin 8192) = colOf j.val c := by
  apply Fin.ext
  have := j.isLt; have := c.isLt
  simp only [colOf]; omega

theorem sum_rows {M : Type*} [AddCommMonoid M] (g : Fin 4096 → M) :
    ∑ a, g a = ∑ i : Fin 4, ∑ r : Fin 1024, g (rowOf i.val r) :=
  (sum_blocks 4 1024 4096 (by norm_num) g).trans
    (Finset.sum_congr rfl fun i _ => Finset.sum_congr rfl fun r _ => congrArg g (rowOf_eq i r _))

theorem sum_cols {M : Type*} [AddCommMonoid M] (g : Fin 8192 → M) :
    ∑ b, g b = ∑ j : Fin 8, ∑ c : Fin 1024, g (colOf j.val c) :=
  (sum_blocks 8 1024 8192 (by norm_num) g).trans
    (Finset.sum_congr rfl fun j _ => Finset.sum_congr rfl fun c _ => congrArg g (colOf_eq j c _))

/-- The sum over all pairs is the sum of the 4 × 8 tile sums. -/
theorem sum_tiles (f : Fin 4096 → Fin 8192 → EReal) :
    ∑ a, ∑ b, f a b = ∑ i : Fin 4, ∑ j : Fin 8, tile f i.val j.val :=
  (sum_rows fun a => ∑ b, f a b).trans <| Finset.sum_congr rfl fun i _ =>
    (Finset.sum_congr rfl fun r _ => sum_cols fun b => f (rowOf i.val r) b).trans Finset.sum_comm

/-! ## Adding the tiles of a row of tiles one after the other -/

/-- The accumulator after position `n` of a walk in which every eighth position starts again from zero. -/
def accum (P : ℕ → EReal) : ℕ → EReal
  | 0 => 0 + P 0
  | n + 1 => if (n + 1) % 8 = 0 then 0 + P (n + 1) else accum P n + P (n + 1)

/-- It holds the sum of the positions since the last restart. -/
theorem accum_closed (P : ℕ → EReal) : ∀ n, accum P n = ∑ k ∈ Finset.range (n % 8 + 1), P (n - n % 8 + k)
  | 0 => by simp [accum]
  | n + 1 => by
    unfold accum
    by_cases h : (n + 1) % 8 = 0
    · rw [if_pos h, h, zero_add]; simp
    · rw [if_neg h, accum_closed P n]
      have h1 : (n + 1) % 8 = n % 8 + 1 := by omega
      have h2 : n + 1 - (n + 1) % 8 = n - n % 8 := by omega
      rw [h2, h1, Finset.sum_range_succ _ (n % 8 + 1)]
      congr 2
      omega

/-- After the eighth position of a row of tiles: the sum of the eight. -/
theorem accum_last (P : ℕ → EReal) (i : ℕ) : accum P (8 * i + 7) = ∑ j : Fin 8, P (8 * i + j.val) := by
  rw [accum_closed, show (8 * i + 7) % 8 + 1 = 8 by omega, show 8 * i + 7 - (8 * i + 7) % 8 = 8 * i by omega,
    Finset.sum_range]

end Cert.RankLoss

end
-- ==== Proof.Loss.lean ====
/-
  The ranking loss as one number, and the two ways of reaching it.

  `loss Q Dt A B = margin + ∑ₐ ∑_b ± (∑ₖ Q a k · Dt k b)`, the sign + where `A a = B b`.
-/
import proofs.«172094_j23184233464204_2_alg».proof.Proof.Spec

noncomputable section

open scoped BigOperators
open Idealize.ShloMosaic Idealize.ShloMosaic.ValueIdx

namespace Cert.RankLoss

/-- The normalized query rows and the normalized database columns (already transposed), as arrays. -/
abbrev SQ : Shape := ⟨2, ![4096, 256]⟩
abbrev SD : Shape := ⟨2, ![256, 8192]⟩

/-- The similarity of query row `a` and database column `b`. -/
def sim (Q : SQ.Idx → EReal) (Dt : SD.Idx → EReal) (a : Fin 4096) (b : Fin 8192) : EReal :=
  ∑ k : Fin 256, Q (ix2 a k) * Dt (ix2 k b)

/-- The similarity where the identifiers agree, zero minus it where they differ. -/
def signed (Q : SQ.Idx → EReal) (Dt : SD.Idx → EReal) (A : Fin 4096 → BitVec 32) (B : Fin 8192 → BitVec 32)
    (a : Fin 4096) (b : Fin 8192) : EReal :=
  Scalar.select (IntOp.cmpi .eq (A a) (B b)) (sim Q Dt a b) (0 - sim Q Dt a b)

/-- The loss: the margin (the f32 nearest 0.2) plus the sum of the signed similarities over all pairs. -/
def loss (Q : SQ.Idx → EReal) (Dt : SD.Idx → EReal) (A : Fin 4096 → BitVec 32) (B : Fin 8192 → BitVec 32) : EReal :=
  Ideal.ofBits .f32 0x3E4CCCCD#32 + ∑ a, ∑ b, signed Q Dt A B a b

/-- TILE BY TILE: zero plus the four row-of-tiles sums, each the eight tiles added one after the other from zero,
    plus the margin. -/
theorem loss_of_tiles (Q : SQ.Idx → EReal) (Dt : SD.Idx → EReal) (A : Fin 4096 → BitVec 32) (B : Fin 8192 → BitVec 32)
    (P : ℕ → EReal) (hP : ∀ (i : Fin 4) (j : Fin 8), P (8 * i.val + j.val) = tile (signed Q Dt A B) i.val j.val) :
    (0 + ∑ i : Fin 4, accum P (8 * i.val + 7)) + Ideal.ofBits .f32 0x3E4CCCCD#32 = loss Q Dt A B := by
  unfold loss
  rw [zero_add, add_comm, sum_tiles]
  refine congrArg (Ideal.ofBits .f32 0x3E4CCCCD#32 + ·) (Finset.sum_congr rfl fun i _ => ?_)
  rw [accum_last]
  exact Finset.sum_congr rfl fun j _ => hP i j

/-- ALL PAIRS AT ONCE, the sign applied as a factor ±1: the margin plus zero plus the sum of the products. -/
theorem loss_of_products (Q : SQ.Idx → EReal) (Dt : SD.Idx → EReal) (A : Fin 4096 → BitVec 32) (B : Fin 8192 → BitVec 32)
    (g : Fin 4096 → Fin 8192 → EReal)
    (hg : ∀ a b, g a b = sim Q Dt a b * Scalar.select (IntOp.cmpi .eq (A a) (B b)) (1 : EReal) (-1)) :
    Ideal.ofBits .f32 0x3E4CCCCD#32 + (0 + ∑ a, ∑ b, g a b) = loss Q Dt A B := by
  unfold loss
  rw [zero_add]
  refine congrArg (Ideal.ofBits .f32 0x3E4CCCCD#32 + ·) (Finset.sum_congr rfl fun a _ => Finset.sum_congr rfl fun b _ => ?_)
  rw [hg, mul_select_sign]
  rfl

end Cert.RankLoss

end
-- ==== Proof.TileValue.lean ====
/-
  One grid point's arithmetic, read at its one index.

  At a grid point the body holds a 1024 × 256 block of normalized query rows, a 256 × 1024 block of normalized database
  columns, the 1024 query identifiers of those rows and the 1024 database identifiers of those columns.  It forms the
  1024 × 1024 similarities  s r c = ∑ₖ q r k · d k c,  keeps  s r c  where the identifiers agree and  0 - s r c  where they
  differ, sums each row, sums the row sums, and adds the total to the running accumulator.  Read at the accumulator's
  single cell, over the extended reals, that is  acc + ∑ᵣ ∑_c ± s r c.
-/
import proofs.«172094_j23184233464204_2_alg».proof.Proof.Gen.KernelIdeal.Skeleton
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.KernelIdeal.TileValue

open Cert.KernelIdeal Cert.KernelIdeal.Gen

/-! ## Layout steps at an index -/

/-- A length-1024 vector viewed as a 1024 × 1 column reads, at row `r`, the vector at `r`. -/
theorem cast_col {α : Type} (v : S1024.Idx → α) (h : S1024.ShapeCasts S1024x1) (r : Fin 1024) (u : Fin 1) :
    shapeCast S1024x1 v h (ix2 r u) = v (ix1 r) :=
  shapeCast_apply v h _ _ (by
    have hu : u.val = 0 := by omega
    rw [Shape.rowMajor_val_two, Shape.rowMajor_val_one]
    show r.val = r.val * 1 + u.val
    rw [hu]; omega)

/-- A 1024 × 1 column spread over 1024 columns reads, at `(r, c)`, the column at row `r`. -/
theorem spread_col {α : Type} (v : S1024x1.Idx → α) (h : S1024x1.Broadcasts S1024x1024) (r c : Fin 1024) :
    broadcastTo S1024x1024 v h (ix2 r c) = v (ix2 r (0 : Fin 1)) := by
  refine broadcastTo_apply v h (ix2 r c) (ix2 r (0 : Fin 1)) fun ax => ?_
  match ax with
  | ⟨0, _⟩ =>
    show r.val = if (1024 : Nat) = 1 then 0 else r.val
    rw [if_neg (by decide)]
  | ⟨1, _⟩ =>
    show 0 = if (1 : Nat) = 1 then 0 else c.val
    rw [if_pos rfl]

/-- A 1 × 1024 row spread over 1024 rows reads, at `(r, c)`, the row at column `c`. -/
theorem spread_row {α : Type} (v : S1x1024.Idx → α) (h : S1x1024.Broadcasts S1024x1024) (r c : Fin 1024) :
    broadcastTo S1024x1024 v h (ix2 r c) = v (ix2 (0 : Fin 1) c) :=
  broadcastTo_1b_ab_apply v h r c

/-- Putting column `c` back into row `r` of the row-summed shape names the cell `(r, c)`. -/
theorem lift_row (r c : Fin 1024) : reduces_S1024x1024_S1024.lift (ix1 r) c = ix2 r c :=
  funext fun a => Fin.ext (by match a with | ⟨0, _⟩ => rfl | ⟨1, _⟩ => rfl)

/-- Putting row `r` back into the one cell of the column-summed shape names the cell `(r, 0)`. -/
theorem lift_col (r : Fin 1024) : reduces_S1024x1_S1.lift (ix1 (0 : Fin 1)) r = ix2 r (0 : Fin 1) :=
  funext fun a => Fin.ext (by match a with | ⟨0, _⟩ => rfl | ⟨1, _⟩ => rfl)

/-! ## The matrix product at a cell -/

theorem lhs_row (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
theorem lhs_k (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_k (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_col (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- The similarity of row `r` and column `c` of the two blocks. -/
def simB (x0 : FVec Ideal S1024x256 .bf16) (x1 : FVec Ideal S256x1024 .bf16) (r c : Fin 1024) : EReal :=
  ∑ k : Fin 256, x0 (ix2 r k) * x1 (ix2 k c)

/-- The matrix product into a zero accumulator, at cell `(r, c)`, is that similarity. -/
theorem matmul_cell (x0 : FVec Ideal S1024x256 .bf16) (x1 : FVec Ideal S256x1024 .bf16) (r c : Fin 1024) :
    matmul (F := Ideal) dot_S1024x256_S256x1024_S1024x1024_1_0_0_1_n_n none x0 x1 (constant S1024x1024 .f32 0x00000000#32) (ix2 r c)
      = simB x0 x1 r c := by
  simp only [matmul]
  rw [Ideal.matmul_constant_zero_apply,
    ← Equiv.sum_comp (contrEquiv1 dot_S1024x256_S256x1024_S1024x1024_1_0_0_1_n_n 256 rfl rfl).symm]
  unfold simB
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r c)
      ((contrEquiv1 dot_S1024x256_S256x1024_S1024x1024_1_0_0_1_n_n 256 rfl rfl).symm k) = ix2 r k :=
    funext fun a => Fin.ext (by
      match a with
      | ⟨0, _⟩ => exact lhs_row _ _
      | ⟨1, _⟩ => exact (lhs_k _ _).trans hk)
  have er : dot_S1024x256_S256x1024_S1024x1024_1_0_0_1_n_n.rhsIdx (ix2 r c)
      ((contrEquiv1 dot_S1024x256_S256x1024_S1024x1024_1_0_0_1_n_n 256 rfl rfl).symm k) = ix2 k c :=
    funext fun a => Fin.ext (by
      match a with
      | ⟨0, _⟩ => exact (rhs_k _ _).trans hk
      | ⟨1, _⟩ => exact rhs_col _ _)
  rw [el, er]

/-- The signed similarity of a cell: the similarity where the two identifiers agree, zero minus it where they differ. -/
def signedB (x0 : FVec Ideal S1024x256 .bf16) (x1 : FVec Ideal S256x1024 .bf16) (x2 : IVec S1024x1 32) (x3 : IVec S1x1024 32)
    (r c : Fin 1024) : EReal :=
  Scalar.select (IntOp.cmpi .eq (x2 (ix2 r (0 : Fin 1))) (x3 (ix2 (0 : Fin 1) c))) (simB x0 x1 r c) (0 - simB x0 x1 r c)

/-- The tile's total: the signed similarities of its 1024 × 1024 cells, rows first. -/
def tileB (x0 : FVec Ideal S1024x256 .bf16) (x1 : FVec Ideal S256x1024 .bf16) (x2 : IVec S1024x1 32) (x3 : IVec S1x1024 32) : EReal :=
  ∑ r : Fin 1024, ∑ c : Fin 1024, signedB x0 x1 x2 x3 r c

/-- What the body stores back into the accumulator, at its one cell: the accumulator plus the tile's total. -/
theorem pay_apply (x0 : FVec Ideal S1024x256 .bf16) (x1 : FVec Ideal S256x1024 .bf16) (x2 : IVec S1024x1 32) (x3 : IVec S1x1024 32)
    (xs : FVec Ideal S1x1 .f32) :
    k0_pay2 (F := Ideal) x0 x1 x2 x3 xs (ix2 (0 : Fin 1) (0 : Fin 1)) = xs (ix2 (0 : Fin 1) (0 : Fin 1)) + tileB x0 x1 x2 x3 := by
  unfold k0_pay2
  simp only [shapeCast_self]
  refine congrArg (xs (ix2 (0 : Fin 1) (0 : Fin 1)) + ·) ?_
  refine (shapeCast_a_1a_apply _ _ (0 : Fin 1) (0 : Fin 1)).trans ?_
  refine (Ideal.multiReduction_add_single _ _ _ _ _ (ix1 (0 : Fin 1))).trans ?_
  unfold tileB
  refine Finset.sum_congr rfl fun r _ => ?_
  refine (congrArg _ (lift_col r)).trans ?_
  refine (cast_col _ _ r (0 : Fin 1)).trans ?_
  refine (Ideal.multiReduction_add_single _ _ _ _ _ (ix1 r)).trans ?_
  refine Finset.sum_congr rfl fun c _ => ?_
  refine (congrArg _ (lift_row r c)).trans ?_
  refine (select_apply _ _ _ _).trans ?_
  unfold signedB
  refine congr (congr (congrArg Scalar.select ?_) (matmul_cell x0 x1 r c)) ?_
  · exact congr (congrArg (IntOp.cmpi .eq) (spread_col x2 _ r c)) (spread_row x3 _ r c)
  · exact congr (congrArg HSub.hSub Ideal.ofBits_zero_f32) (matmul_cell x0 x1 r c)

end Cert.KernelIdeal.TileValue

end
-- ==== Proof.Pieces.lean ====
/-
  What one grid point leaves behind, as values.

  The body keeps a single-cell accumulator across the grid points of a row of tiles.  At the first point of a row it
  stores zero, reads it back and stores zero plus the tile's total; at every later point it stores the accumulator
  plus the tile's total; at the last point of the row it also copies the accumulator into the row's output cell.
  Here each of these contents is read back as the body's own arithmetic applied to the blocks it loaded.
-/
import proofs.«172094_j23184233464204_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later point of a row of tiles leaves, in the accumulator that held `xs0`, the body's sum of `xs0` and the tile. -/
theorem acc_B (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : ¬cond0_1 i)
    (x0 : Vec F S1024x256 .bf16) (x1 : Vec F S256x1024 .bf16) (x2 : Vec F S1024x1 .i32) (x3 : Vec F S1x1024 .i32) (xs0 : Vec F S1x1 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz2]
  simp only [View.readAt_eq_ld, harg2.read_unread, harg3.read_unread, harg4.read_unread, harg5.read_unread, harg6.read_unread, harg7.read_unread,
    View.ld_unit_zero (S := S1024x256) hz2, View.ld_unit_zero (S := S256x1024) hz2, View.ld_unit_zero (S := S1024x1) hz2,
    View.ld_unit_zero (S := S1x1024) hz2, View.ld_unit_zero (S := S1x1) hz2, View.ld_unit_zero (S := S1x1x1) hz3]

/-- The last point of a row of tiles leaves the same in the accumulator, -/
theorem acc_C (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S1024x256 .bf16) (x1 : Vec F S256x1024 .bf16) (x2 : Vec F S1024x1 .i32) (x3 : Vec F S1x1024 .i32) (xs0 : Vec F S1x1 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread,
    View.ld_unit_zero (S := S1024x256) hz2, View.ld_unit_zero (S := S256x1024) hz2, View.ld_unit_zero (S := S1024x1) hz2,
    View.ld_unit_zero (S := S1x1024) hz2, View.ld_unit_zero (S := S1x1) hz2, View.ld_unit_zero (S := S1x1x1) hz3]

/-- and copies it into the row's output cell. -/
theorem out_C (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1x1 .f32) (harg6 : arg6.IsWhole) (arg7 : Memref sig .tc .vmem S1x1 .f32) (harg7 : arg7.IsWhole) (hc0 : ¬cond0_0 i) (hc1 : cond0_1 i)
    (x0 : Vec F S1024x256 .bf16) (x1 : Vec F S256x1024 .bf16) (x2 : Vec F S1024x1 .i32) (x3 : Vec F S1x1024 .i32) (xs0 : Vec F S1x1 .f32) :
    out0_C_4 c i arg2 harg2 arg3 harg3 arg4 harg4 arg5 harg5 arg6 harg6 arg7 harg7 hc0 hc1 x0 x1 x2 x3 xs0 = k0_pay3 (k0_pay2 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz3, View.readCov_unit_zero (S := S1x1) _ hz2]
  simp only [View.readAt_eq_ld, harg2.read_unread, harg3.read_unread, harg4.read_unread, harg5.read_unread, harg6.read_unread, harg7.read_unread,
    View.ld_unit_zero (S := S1024x256) hz2, View.ld_unit_zero (S := S256x1024) hz2, View.ld_unit_zero (S := S1024x1) hz2,
    View.ld_unit_zero (S := S1x1024) hz2, View.ld_unit_zero (S := S1x1) hz2, View.ld_unit_zero (S := S1x1x1) hz3]

/-- The first point of a row of tiles stores zero, reads it back, and leaves the body's sum of zero and the tile. -/
theorem acc_A (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1x1x1 .f32) (harg6 : arg6.IsWhole) (arg7 : Memref sig .tc .vmem S1x1 .f32) (harg7 : arg7.IsWhole) (hc0 : cond0_0 i) (hc1 : ¬cond0_1 i)
    (x0 : Vec F S1024x256 .bf16) (x1 : Vec F S256x1024 .bf16) (x2 : Vec F S1024x1 .i32) (x3 : Vec F S1x1024 .i32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread,
    View.ld_unit_zero (S := S1024x256) hz2, View.ld_unit_zero (S := S256x1024) hz2, View.ld_unit_zero (S := S1024x1) hz2,
    View.ld_unit_zero (S := S1x1024) hz2, View.ld_unit_zero (S := S1x1) hz2, View.ld_unit_zero (S := S1x1x1) hz3]

end Cert.KernelIdeal.Pieces

end
-- ==== Proof.Accumulate.lean ====
/-
  The accumulator along the grid.

  The grid's 32 points run through the 4 rows of tiles, 8 tiles each.  After the point at position `n` the single-cell
  accumulator holds the sum of the tile totals since the row began — zero plus the first tile, then one more tile per
  point — and at the last point of a row the row's output cell receives that sum.  This is the walk `accum` of the
  specification, proved by induction on the position.
-/
import proofs.«172094_j23184233464204_2_alg».proof.Proof.Spec
import proofs.«172094_j23184233464204_2_alg».proof.Proof.TileValue
import proofs.«172094_j23184233464204_2_alg».proof.Proof.Pieces

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Accumulate

open Cert.KernelIdeal Cert.KernelIdeal.Gen Cert.KernelIdeal.TileValue Cert.KernelIdeal.Pieces Cert.RankLoss

variable (m : (ℓ : Loc nD τ sig) → Buf (Elt Ideal) ℓ)

/-- The tile total at grid position `n` (zero past the grid): of the four blocks the windows hold there. -/
def tileAt (c : Dev nD) (n : ℕ) : EReal :=
  if h : n < cfg0.N then
    tileB (iblk m c 0 ⟨n, h⟩) (iblk m c 1 ⟨n, h⟩) (iblk m c 2 ⟨n, h⟩) (iblk m c 3 ⟨n, h⟩)
  else 0

theorem tileAt_pos (c : Dev nD) (t : Fin cfg0.N) :
    tileAt m c t.val = tileB (iblk m c 0 t) (iblk m c 1 t) (iblk m c 2 t) (iblk m c 3 t) := by
  unfold tileAt
  rw [dif_pos t.isLt]

/-- The zero the first point of a row stores, at its cell. -/
theorem zero_cell : k0_pay1 (F := Ideal) (ix2 (0 : Fin 1) (0 : Fin 1)) = 0 := by
  unfold k0_pay1
  simp only [shapeCast_self]
  exact Ideal.ofBits_zero_f32

/-- The single-cell accumulator copied into the single-cell output: the same number. -/
theorem copy_cell (v : FVec Ideal S1x1 .f32) :
    k0_pay3 (F := Ideal) v (ix3 (0 : Fin 1) (0 : Fin 1) (0 : Fin 1)) = v (ix2 (0 : Fin 1) (0 : Fin 1)) := by
  unfold k0_pay3
  exact shapeCast_apply v _ _ _ (by rw [Shape.rowMajor_val_two, Shape.rowMajor_val_three]; rfl)

/-- First point of a row: zero plus the tile. -/
theorem step_first (c : Dev nD) (t : Fin cfg0.N) (h0 : t.val % 8 = 0) (h1 : ¬t.val % 8 = 7) :
    (outsAt0 m c t.val t.isLt).2 (ix2 (0 : Fin 1) (0 : Fin 1)) = 0 + tileAt m c t.val := by
  rw [outsAt0_A m c t h0 h1, tileAt_pos]
  dsimp only
  refine (congrFun (acc_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) _).trans ?_
  refine (pay_apply (iblk m c 0 t) (iblk m c 1 t) (iblk m c 2 t) (iblk m c 3 t) (k0_pay1 (F := Ideal))).trans ?_
  rw [zero_cell]

/-- A later point that is not the row's last: the accumulator plus the tile. -/
theorem step_mid (c : Dev nD) (t : Fin cfg0.N) (h0 : ¬t.val % 8 = 0) (h1 : ¬t.val % 8 = 7) :
    (outsAt0 m c t.val t.isLt).2 (ix2 (0 : Fin 1) (0 : Fin 1))
      = (outsAt0 m c (t.val - 1) (Nat.lt_of_le_of_lt (Nat.sub_le _ _) t.isLt)).2 (ix2 (0 : Fin 1) (0 : Fin 1)) + tileAt m c t.val := by
  rw [outsAt0_B m c t h0 h1, tileAt_pos]
  dsimp only
  refine (congrFun (acc_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) _).trans ?_
  exact pay_apply (iblk m c 0 t) (iblk m c 1 t) (iblk m c 2 t) (iblk m c 3 t) (outsAt0 m c (t.val - 1) (Nat.lt_of_le_of_lt (Nat.sub_le _ _) t.isLt)).2

/-- The row's last point: the same for the accumulator, -/
theorem step_last (c : Dev nD) (t : Fin cfg0.N) (h0 : ¬t.val % 8 = 0) (h1 : t.val % 8 = 7) :
    (outsAt0 m c t.val t.isLt).2 (ix2 (0 : Fin 1) (0 : Fin 1))
      = (outsAt0 m c (t.val - 1) (Nat.lt_of_le_of_lt (Nat.sub_le _ _) t.isLt)).2 (ix2 (0 : Fin 1) (0 : Fin 1)) + tileAt m c t.val := by
  rw [outsAt0_C m c t h0 h1, tileAt_pos]
  dsimp only
  refine (congrFun (acc_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) _).trans ?_
  exact pay_apply (iblk m c 0 t) (iblk m c 1 t) (iblk m c 2 t) (iblk m c 3 t) (outsAt0 m c (t.val - 1) (Nat.lt_of_le_of_lt (Nat.sub_le _ _) t.isLt)).2

/-- and the output cell receives what the accumulator then holds. -/
theorem out_last (c : Dev nD) (t : Fin cfg0.N) (h0 : ¬t.val % 8 = 0) (h1 : t.val % 8 = 7) :
    (outsAt0 m c t.val t.isLt).1 (ix3 (0 : Fin 1) (0 : Fin 1) (0 : Fin 1))
      = (outsAt0 m c t.val t.isLt).2 (ix2 (0 : Fin 1) (0 : Fin 1)) := by
  rw [outsAt0_C m c t h0 h1]
  dsimp only
  refine (congrFun (out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) _).trans ?_
  refine (copy_cell _).trans ?_
  exact (congrFun (acc_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) _).symm

/-- THE WALK: after position `n` the accumulator holds the sum of the tiles since the row began. -/
theorem scratch_eq (c : Dev nD) : ∀ (n : ℕ) (h : n < cfg0.N),
    (outsAt0 m c n h).2 (ix2 (0 : Fin 1) (0 : Fin 1)) = accum (tileAt m c) n
  | 0, h => step_first m c ⟨0, h⟩ rfl (by show ¬0 % 8 = 7; omega)
  | n + 1, h => by
    unfold accum
    by_cases h0 : (n + 1) % 8 = 0
    · rw [if_pos h0]
      exact step_first m c ⟨n + 1, h⟩ h0 (by dsimp only; omega)
    · rw [if_neg h0, ← scratch_eq c n (Nat.lt_of_succ_lt h)]
      by_cases h1 : (n + 1) % 8 = 7
      · exact step_last m c ⟨n + 1, h⟩ h0 h1
      · exact step_mid m c ⟨n + 1, h⟩ h0 h1

/-- So at the last point of a row the output cell holds the sum of the row's eight tiles. -/
theorem out_eq (c : Dev nD) (t : Fin cfg0.N) (h1 : t.val % 8 = 7) :
    (outsAt0 m c t.val t.isLt).1 (ix3 (0 : Fin 1) (0 : Fin 1) (0 : Fin 1)) = accum (tileAt m c) t.val :=
  (out_last m c t (by omega) h1).trans (scratch_eq m c t.val t.isLt)

end Cert.KernelIdeal.Accumulate

end
-- ==== Proof.Blocks.lean ====
/-
  The blocks the windows hold, read where they lie in their arrays.

  Position `n` of the grid is tile `(n / 8, n % 8)`: the query-row windows hold rows `1024 · (n / 8) + r`, the
  database-column windows hold columns `1024 · (n % 8) + c`.  So the tile total the body forms at position `n` is the
  sum of the signed similarities over tile `(n / 8, n % 8)` of the whole arrays.
-/
import proofs.«172094_j23184233464204_2_alg».proof.Proof.Loss
import proofs.«172094_j23184233464204_2_alg».proof.Proof.TileValue
import proofs.«172094_j23184233464204_2_alg».proof.Proof.Gen.KernelIdeal.Frame
import Idealize.ShloMosaic.Lib.Pipeline.Value

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.TileValue Cert.RankLoss

variable (m : (ℓ : Loc nD τ sig) → Buf (Elt Ideal) ℓ)

/-- The printed index maps over the grid: rows of tiles move with `n / 8`, columns of tiles with `n % 8`. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N, _)

/-- The query block at position `t`: rows `1024 · (t / 8) + r` of the normalized queries. -/
theorem read_q (c : Dev nD) (t : Fin cfg0.N) (r : Fin 1024) (k : Fin 256) :
    iblk m c 0 t (ix2 r k) = V m c main_v8 (ix2 (rowOf (t.val / 8) r) k) := by
  obtain ⟨e0, e1, -⟩ := idx_facts t
  have hN : t.val < 32 := lt_of_lt_of_eq t.isLt (show cfg0.N = 32 from N_0)
  unfold iblk
  rw [View.read_apply]
  show V m c main_v8 _ = V m c main_v8 _
  refine congrArg (V m c main_v8) (funext fun a => Fin.ext ?_)
  match a with
  | ⟨0, _⟩ =>
    show win0_0.index t (0 : Fin 2) * 1024 + 1 * r.val = (1024 * (t.val / 8) + r.val) % 4096
    rw [e0]; have := r.isLt; omega
  | ⟨1, _⟩ =>
    show win0_0.index t (1 : Fin 2) * 256 + 1 * k.val = k.val
    rw [e1]; omega

/-- The database block at position `t`: columns `1024 · (t % 8) + c` of the normalized, transposed database. -/
theorem read_d (c : Dev nD) (t : Fin cfg0.N) (k : Fin 256) (cc : Fin 1024) :
    iblk m c 1 t (ix2 k cc) = V m c main_v18 (ix2 k (colOf (t.val % 8) cc)) := by
  obtain ⟨-, -, e0, e1, -⟩ := idx_facts t
  unfold iblk
  rw [View.read_apply]
  show V m c main_v18 _ = V m c main_v18 _
  refine congrArg (V m c main_v18) (funext fun a => Fin.ext ?_)
  match a with
  | ⟨0, _⟩ =>
    show win0_1.index t (0 : Fin 2) * 256 + 1 * k.val = k.val
    rw [e0]; omega
  | ⟨1, _⟩ =>
    show win0_1.index t (1 : Fin 2) * 1024 + 1 * cc.val = (1024 * (t.val % 8) + cc.val) % 8192
    rw [e1]; have := cc.isLt; omega

/-- The query identifiers at position `t`: those of rows `1024 · (t / 8) + r`. -/
theorem read_qid (c : Dev nD) (t : Fin cfg0.N) (r : Fin 1024) :
    iblk m c 2 t (ix2 r (0 : Fin 1)) = V m c main_v19 (ix2 (rowOf (t.val / 8) r) (0 : Fin 1)) := by
  obtain ⟨-, -, -, -, e0, e1, -⟩ := idx_facts t
  have hN : t.val < 32 := lt_of_lt_of_eq t.isLt (show cfg0.N = 32 from N_0)
  unfold iblk
  rw [View.read_apply]
  show V m c main_v19 _ = V m c main_v19 _
  refine congrArg (V m c main_v19) (funext fun a => Fin.ext ?_)
  match a with
  | ⟨0, _⟩ =>
    show win0_2.index t (0 : Fin 2) * 1024 + 1 * r.val = (1024 * (t.val / 8) + r.val) % 4096
    rw [e0]; have := r.isLt; omega
  | ⟨1, _⟩ =>
    show win0_2.index t (1 : Fin 2) * 1 + 1 * 0 = 0
    rw [e1]

/-- The database identifiers at position `t`: those of columns `1024 · (t % 8) + c`. -/
theorem read_did (c : Dev nD) (t : Fin cfg0.N) (cc : Fin 1024) :
    iblk m c 3 t (ix2 (0 : Fin 1) cc) = V m c main_v20 (ix2 (0 : Fin 1) (colOf (t.val % 8) cc)) := by
  obtain ⟨-, -, -, -, -, -, e0, e1⟩ := idx_facts t
  unfold iblk
  rw [View.read_apply]
  show V m c main_v20 _ = V m c main_v20 _
  refine congrArg (V m c main_v20) (funext fun a => Fin.ext ?_)
  match a with
  | ⟨0, _⟩ =>
    show win0_3.index t (0 : Fin 2) * 1 + 1 * 0 = 0
    rw [e0]
  | ⟨1, _⟩ =>
    show win0_3.index t (1 : Fin 2) * 1024 + 1 * cc.val = (1024 * (t.val % 8) + cc.val) % 8192
    rw [e1]; have := cc.isLt; omega

/-- A cell of a tile is a pair of the whole arrays: when the blocks read as the arrays' rows and columns there, the
    cell's signed similarity is the pair's. -/
theorem signedB_eq (x0 : FVec Ideal S1024x256 .bf16) (x1 : FVec Ideal S256x1024 .bf16) (x2 : IVec S1024x1 32) (x3 : IVec S1x1024 32)
    (Q : SQ.Idx → EReal) (Dt : SD.Idx → EReal) (A : Fin 4096 → BitVec 32) (B : Fin 8192 → BitVec 32)
    (a : Fin 4096) (b : Fin 8192) (r cc : Fin 1024)
    (h0 : ∀ k : Fin 256, x0 (ix2 r k) = Q (ix2 a k)) (h1 : ∀ k : Fin 256, x1 (ix2 k cc) = Dt (ix2 k b))
    (h2 : x2 (ix2 r (0 : Fin 1)) = A a) (h3 : x3 (ix2 (0 : Fin 1) cc) = B b) :
    signedB x0 x1 x2 x3 r cc = signed Q Dt A B a b := by
  have hs : simB x0 x1 r cc = sim Q Dt a b := by
    unfold simB sim
    exact Finset.sum_congr rfl fun k _ => by rw [h0 k, h1 k]
  unfold signedB signed
  rw [h2, h3, hs]

/-- The arrays the region finds, as the loss reads them. -/
abbrev arrQ (c : Dev nD) : SQ.Idx → EReal := V m c main_v8
abbrev arrD (c : Dev nD) : SD.Idx → EReal := V m c main_v18
abbrev idQ (c : Dev nD) : Fin 4096 → BitVec 32 := fun a => V m c main_v19 (ix2 a (0 : Fin 1))
abbrev idD (c : Dev nD) : Fin 8192 → BitVec 32 := fun b => V m c main_v20 (ix2 (0 : Fin 1) b)

/-- THE TILE at position `t`: the body's total there is the loss's tile `(t / 8, t % 8)`. -/
theorem tileB_eq (c : Dev nD) (t : Fin cfg0.N) :
    tileB (iblk m c 0 t) (iblk m c 1 t) (iblk m c 2 t) (iblk m c 3 t)
      = tile (signed (arrQ m c) (arrD m c) (idQ m c) (idD m c)) (t.val / 8) (t.val % 8) := by
  unfold tileB tile
  refine Finset.sum_congr rfl fun r _ => Finset.sum_congr rfl fun cc _ => ?_
  exact signedB_eq (iblk m c 0 t) (iblk m c 1 t) (iblk m c 2 t) (iblk m c 3 t) (arrQ m c) (arrD m c) (idQ m c) (idD m c)
    (rowOf (t.val / 8) r) (colOf (t.val % 8) cc) r cc
    (fun k => read_q m c t r k) (fun k => read_d m c t k cc) (read_qid m c t r) (read_did m c t cc)

end Cert.KernelIdeal.Blocks

end
-- ==== Proof.Final.lean ====
/-
  The kernel's result.

  The output array has one cell per row of tiles; the cell of row `i` is written once, at the row's last grid point, with
  the accumulator's contents there: the sum of the row's eight tiles.  After the region the host adds the four cells
  to zero and adds the margin.  Tile by tile this is the loss of the arrays the region found.
-/
import proofs.«172094_j23184233464204_2_alg».proof.Proof.Loss
import proofs.«172094_j23184233464204_2_alg».proof.Proof.Accumulate
import proofs.«172094_j23184233464204_2_alg».proof.Proof.Blocks
import Idealize.ShloMosaic.Lib.Pipeline.Value
import Idealize.ShloMosaic.Lib.StableHlo.Run
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Accumulate Cert.KernelIdeal.Blocks Cert.RankLoss

variable (m : (ℓ : Loc nD τ sig) → Buf (Elt Ideal) ℓ) (ρ : Dev nD → PrngReg)

/-- What the output array ends holding: in the cell of row-of-tiles `i`, the walk's value at the row's last position. -/
def outArr (c : Dev nD) : S4x1x1.Idx → EReal := fun x => accum (tileAt m c) (8 * (x 0).val + 7)

/-- The output window's index map over the grid: the row of tiles. -/
theorem idx_out : ∀ t : Fin cfg0.N,
    win0_4.index t (0 : Fin 3) = t.val / 8 ∧ win0_4.index t (1 : Fin 3) = 0 ∧ win0_4.index t (2 : Fin 3) = 0 :=
  (by decide +kernel : ∀ t : Fin grid0.N, _)

/-- What a row's last point writes back is that row's cell of `outArr`. -/
theorem flushed_eq (c : Dev nD) (t : Fin cfg0.N) (hf : (cfg0.win 4).flush t = true) :
    (dats m 0 c).flushed 4 t = ((cfg0.win 4).blk t).view.read (Elt Ideal) (outArr m c) := by
  have h7 : t.val % 8 = 7 := (flush0_4 t).mp hf
  obtain ⟨e0, e1, e2⟩ := idx_out t
  show (cfg0.win 4).cut (grid0.coords t) ((dats m 0 c).after 4 t) = _
  rw [after0_4]
  funext j
  rw [View.read_apply]
  have hj0 : (j 0).val < 1 := (j 0).isLt
  have hj1 : (j 1).val < 1 := (j 1).isLt
  have hj2 : (j 2).val < 1 := (j 2).isLt
  have hcell : (cfg0.win 4).xinj (grid0.coords t) j = ix3 (0 : Fin 1) (0 : Fin 1) (0 : Fin 1) :=
    funext fun a => Fin.ext (by
      match a with
      | ⟨0, _⟩ => show (j 0).val = 0; omega
      | ⟨1, _⟩ => show (j 1).val = 0; omega
      | ⟨2, _⟩ => show (j 2).val = 0; omega)
  show (outsAt0 m c t.val t.isLt).1 ((cfg0.win 4).xinj (grid0.coords t) j) = _
  rw [hcell, out_eq m c t h7]
  unfold outArr
  refine congrArg (accum (tileAt m c)) ?_
  show t.val = 8 * (win0_4.index t (0 : Fin 3) * 1 + 1 * (j 0).val) + 7
  rw [e0]; omega

/-- Every cell of the output array is some row's last point's block. -/
theorem cover (c : Dev nD) (i : S4x1x1.Idx) :
    ∃ t : Fin cfg0.N, (cfg0.win 4).flush t = true ∧ i ∈ ((cfg0.win 4).blk t).view.set := by
  have h0 : (i 0).val < 4 := (i 0).isLt
  have h1 : (i 1).val < 1 := (i 1).isLt
  have h2 : (i 2).val < 1 := (i 2).isLt
  have hN : cfg0.N = 32 := N_0
  let t : Fin cfg0.N := ⟨8 * (i 0).val + 7, by rw [hN]; omega⟩
  have ht : t.val = 8 * (i 0).val + 7 := rfl
  obtain ⟨e0, e1, e2⟩ := idx_out t
  refine ⟨t, (flush0_4 t).mpr (by rw [ht]; omega), ?_⟩
  show i ∈ ((View.whole main_v21).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    rw [e0, ht]; omega
  | ⟨1, _⟩ =>
    show win0_4.index t (1 : Fin 3) * 1 ≤ (i 1).val ∧ (i 1).val < win0_4.index t (1 : Fin 3) * 1 + 1
    rw [e1]; omega
  | ⟨2, _⟩ =>
    show win0_4.index t (2 : Fin 3) * 1 ≤ (i 2).val ∧ (i 2).val < win0_4.index t (2 : Fin 3) * 1 + 1
    rw [e2]; omega

/-- So the output array ends holding `outArr`. -/
theorem final_out (c : Dev nD) : (dats m 0 c).arrAt 4 cfg0.N = outArr m c :=
  (dats m 0 c).arrAt_eq_of_cover 4 (outArr m c) (flushed_eq m c) (cover c)

/-- The output array's cells, one per row of tiles. -/
def rowCell : S4x1x1.Idx ≃ Fin 4 where
  toFun x := x 0
  invFun i := ix3 i (0 : Fin 1) (0 : Fin 1)
  left_inv x := funext fun a => Fin.ext (by
    match a with
    | ⟨0, _⟩ => rfl
    | ⟨1, _⟩ => show 0 = (x 1).val; have h : (x 1).val < 1 := (x 1).isLt; omega
    | ⟨2, _⟩ => show 0 = (x 2).val; have h : (x 2).val < 1 := (x 2).isLt; omega)
  right_inv _ := rfl

/-- The tile total at position `8 i + j` is the loss's tile `(i, j)`. -/
theorem tileAt_eq (c : Dev nD) (i : Fin 4) (j : Fin 8) :
    tileAt m c (8 * i.val + j.val) = tile (signed (arrQ m c) (arrD m c) (idQ m c) (idD m c)) i.val j.val := by
  have hN : cfg0.N = 32 := N_0
  have h : 8 * i.val + j.val < cfg0.N := by rw [hN]; have := i.isLt; have := j.isLt; omega
  have e : tileAt m c (8 * i.val + j.val)
      = tile (signed (arrQ m c) (arrD m c) (idQ m c) (idD m c)) ((8 * i.val + j.val) / 8) ((8 * i.val + j.val) % 8) :=
    (tileAt_pos m c ⟨8 * i.val + j.val, h⟩).trans (tileB_eq m c ⟨8 * i.val + j.val, h⟩)
  have e0 : (8 * i.val + j.val) / 8 = i.val := by have := j.isLt; omega
  have e1 : (8 * i.val + j.val) % 8 = j.val := by have := j.isLt; omega
  rw [e0, e1] at e
  exact e

/-- After the region: the four cells added to zero, plus the margin — the loss of the arrays the region found. -/
theorem tail_value (c : Dev nD) :
    Pipeline.afterTail₀ cfgs (dats m) 0 (V0 m) [hostOps1] c main_v23
      = fun _ => loss (arrQ m c) (arrD m c) (idQ m c) (idD m c) := by
  unfold Pipeline.afterTail₀
  show StableHlo.after hostOps1 _ (Proc.devRef .tc main_v23) = _
  after_results
  have hw : Pipeline.withArrays (cfgs 0).spec c (V0 m c) (fun w => (dats m 0 c).arrAt w (cfgs 0).N) (Proc.devRef .tc main_v21)
      = outArr m c :=
    (Pipeline.withArrays_arr spec0 launch0.win.arr_inj c _ _ 4).trans (final_out m c)
  rw [hw]
  funext i
  have hsum : Host.reduceAdd (F := Ideal) (outArr m c) (constant S_ .f32 0x00000000#32) reducesTo_S4x1x1_S_d0_1_2 h_S_ i
      = Ideal.ofBits .f32 0x00000000#32 + ∑ x : S4x1x1.Idx, outArr m c x := by
    simp only [Host.reduceAdd, Ideal.hostReduceAdd_def]
    exact Ideal.hostReduceAdd_total reducesTo_S4x1x1_S_d0_1_2 (fun b => b.elim0) (outArr m c) _ i
  show Host.reduceAdd (F := Ideal) (outArr m c) (constant S_ .f32 0x00000000#32) reducesTo_S4x1x1_S_d0_1_2 h_S_ i
      + Ideal.ofBits .f32 0x3E4CCCCD#32 = _
  rw [hsum, Ideal.ofBits_zero_f32, ← Equiv.sum_comp rowCell.symm (outArr m c)]
  exact loss_of_tiles _ _ _ _ (tileAt m c) (tileAt_eq m c)

/-- THE KERNEL'S RUN, READ: every execution ends with the result at the loss of the arrays the region found, and the
    four arguments as they were. -/
theorem run : θ_run defs (onTc (τ := τ) (main (F := Ideal))) ⟨m, fun _ => 0, ρ⟩ fun r => ∀ c : Dev nD,
      r.2.mem ((c.tc : Thread nD τ).loc main_v23) = (fun _ => loss (arrQ m c) (arrD m c) (idQ m c) (idD m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v23 (Pipeline.mem_restRefs_of main_v23 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefLoss.lean ====
/-
  The reference's result.

  The reference normalizes the two arrays, multiplies them into the 4096 × 8192 similarities, multiplies each by +1
  where the identifiers agree and by -1 where they differ, sums all the products from zero and adds the result to the
  margin.  Over the extended reals that is the loss of its normalized arrays and its identifiers.
-/
import proofs.«172094_j23184233464204_2_alg».proof.Proof.Loss
import proofs.«172094_j23184233464204_2_alg».proof.Proof.Gen.ReferenceIdeal.Read
import Idealize.ShloMosaic.Lib.IdealHost

noncomputable section

open scoped BigOperators
open Idealize.ShloMosaic Idealize.ShloMosaic.ValueIdx

namespace Cert.ReferenceIdeal.RefLoss

open Cert.ReferenceIdeal Cert.ReferenceIdeal.Gen Cert.ReferenceIdeal.Read Cert.RankLoss

theorem lidx_eq (a : Fin 4096) (b : Fin 8192) (k : Fin 256) : lidx_main_v17 (ix2 a b) k = ix2 a k :=
  funext fun d => Fin.ext (by match d with | ⟨0, _⟩ => rfl | ⟨1, _⟩ => rfl)
theorem ridx_eq (a : Fin 4096) (b : Fin 8192) (k : Fin 256) : ridx_main_v17 (ix2 a b) k = ix2 k b :=
  funext fun d => Fin.ext (by match d with | ⟨0, _⟩ => rfl | ⟨1, _⟩ => rfl)
theorem qid_idx_eq (a : Fin 4096) (b : Fin 8192) : idx_main_v18 (idx_main_v20 (ix2 a b)) = ix1 a :=
  funext fun d => Fin.ext (by match d with | ⟨0, _⟩ => rfl)
theorem did_idx_eq (a : Fin 4096) (b : Fin 8192) : idx_main_v19 (idx_main_v21 (ix2 a b)) = ix1 b :=
  funext fun d => Fin.ext (by match d with | ⟨0, _⟩ => rfl)

/-- One pair's product: the similarity times the selected sign. -/
theorem product_apply (x0 : (⟨S4096x256, .f32⟩ : BufTy).Contents (Elt Ideal)) (x1 : (⟨S8192x256, .f32⟩ : BufTy).Contents (Elt Ideal))
    (x2 : (⟨S4096, .i32⟩ : BufTy).Contents (Elt Ideal)) (x3 : (⟨S8192, .i32⟩ : BufTy).Contents (Elt Ideal)) (a : Fin 4096) (b : Fin 8192) :
    val_main_v25 (F := Ideal) x0 x1 x2 x3 (ix2 a b)
      = sim (val_main_v7 (F := Ideal) x0) (val_main_v16 (F := Ideal) x1) a b
        * Scalar.select (IntOp.cmpi .eq (x2 (ix1 a)) (x3 (ix1 b))) (1 : EReal) (-1) := by
  rw [val_main_v25_apply, val_main_v17_apply, val_main_v24_apply, val_main_v23_apply, val_main_v22_apply,
    val_main_v20_apply, val_main_v21_apply, val_main_v18_apply, val_main_v19_apply, val_main_call0_v0_apply,
    val_main_call0_v1_apply, val_main_cst_3_apply, val_main_cst_4_apply, qid_idx_eq, did_idx_eq]
  simp only [lidx_eq, ridx_eq]
  show (∑ k : Fin 256, _) * Scalar.select _ (Ideal.ofBits .f32 0x3F800000#32) (Ideal.ofBits .f32 0xBF800000#32) = _
  rw [Ideal.ofBits_one_f32, ofBits_neg_one_f32]
  rfl

/-- THE REFERENCE'S RESULT is the loss of its normalized arrays and its identifiers. -/
theorem result_eq (x0 : (⟨S4096x256, .f32⟩ : BufTy).Contents (Elt Ideal)) (x1 : (⟨S8192x256, .f32⟩ : BufTy).Contents (Elt Ideal))
    (x2 : (⟨S4096, .i32⟩ : BufTy).Contents (Elt Ideal)) (x3 : (⟨S8192, .i32⟩ : BufTy).Contents (Elt Ideal)) :
    val_main_v27 (F := Ideal) x0 x1 x2 x3
      = fun _ => loss (val_main_v7 (F := Ideal) x0) (val_main_v16 (F := Ideal) x1) (fun a => x2 (ix1 a)) (fun b => x3 (ix1 b)) := by
  funext i
  rw [val_main_v27_apply, val_main_v26_apply, sum_idx2]
  show Ideal.ofBits .f32 0x3E4CCCCD#32 + (Ideal.ofBits .f32 0x00000000#32 + _) = _
  rw [Ideal.ofBits_zero_f32]
  exact loss_of_products _ _ _ _ _ (fun a b => product_apply x0 x1 x2 x3 a b)

end Cert.ReferenceIdeal.RefLoss

end
-- ==== Proof.Entry.lean ====
/-
  The arrays the region finds.

  Before the region the host normalizes the query rows and the database rows, transposes the latter, rounds both to
  bf16 (no change over the extended reals) and views the two identifier vectors as a column and a row.  These are the
  reference's own normalized arrays, and the identifiers themselves.
-/
import proofs.«172094_j23184233464204_2_alg».proof.Proof.Blocks
import proofs.«172094_j23184233464204_2_alg».proof.Proof.Gen.ReferenceIdeal.Read
import Idealize.ShloMosaic.Lib.StableHlo.Run
import Idealize.ShloMosaic.Lib.ValueLayout

set_option maxRecDepth 16384

noncomputable section

open Idealize.ShloMosaic Idealize.ShloMosaic.TcCoe Idealize.SL.Sem Idealize.ShloMosaic.ValueIdx Idealize.ShloMosaic.StableHlo

namespace Cert.KernelIdeal.Entry

open Cert.KernelIdeal Cert.KernelIdeal.Gen Cert.KernelIdeal.Blocks

variable (m : (ℓ : Loc nD τ sig) → Buf (Elt Ideal) ℓ)

/-- The normalized queries. -/
theorem entry_q (c : Dev nD) :
    arrQ m c = Cert.ReferenceIdeal.Read.val_main_v7 (F := Ideal) (m ((c : Thread nD τ).loc main_arg0)) := by
  show StableHlo.after hostOps0 (fun b => m (c, b)) (Proc.devRef .tc main_v8) = _
  after_results
  rfl

/-- The normalized database, transposed. -/
theorem entry_d (c : Dev nD) :
    arrD m c = Cert.ReferenceIdeal.Read.val_main_v16 (F := Ideal) (m ((c : Thread nD τ).loc main_arg1)) := by
  show StableHlo.after hostOps0 (fun b => m (c, b)) (Proc.devRef .tc main_v18) = _
  after_results
  rfl

/-- The query identifiers. -/
theorem entry_qid (c : Dev nD) (a : Fin 4096) :
    idQ m c a = (m ((c : Thread nD τ).loc main_arg2) : S4096.Idx → BitVec 32) (ix1 a) := by
  have e : (V m c main_v19 : S4096x1.Idx → BitVec 32)
      = shapeCast S4096x1 (m ((c : Thread nD τ).loc main_arg2) : S4096.Idx → BitVec 32) shapeCasts_S4096_S4096x1 := by
    show StableHlo.after hostOps0 (fun b => m (c, b)) (Proc.devRef .tc main_v19) = _
    after_results
    rfl
  show V m c main_v19 (ix2 a (0 : Fin 1)) = _
  rw [e]
  refine shapeCast_apply (s := S4096) (t := S4096x1) _ _ (ix2 a (0 : Fin 1)) (ix1 a) ?_
  rw [Shape.rowMajor_val_one, Shape.rowMajor_val_two]
  show a.val = a.val * 1 + 0
  omega

/-- The database identifiers. -/
theorem entry_did (c : Dev nD) (b : Fin 8192) :
    idD m c b = (m ((c : Thread nD τ).loc main_arg3) : S8192.Idx → BitVec 32) (ix1 b) := by
  have e : (V m c main_v20 : S1x8192.Idx → BitVec 32)
      = shapeCast S1x8192 (m ((c : Thread nD τ).loc main_arg3) : S8192.Idx → BitVec 32) shapeCasts_S8192_S1x8192 := by
    show StableHlo.after hostOps0 (fun b => m (c, b)) (Proc.devRef .tc main_v20) = _
    after_results
    rfl
  show V m c main_v20 (ix2 (0 : Fin 1) b) = _
  rw [e]
  exact shapeCast_a_1a_apply _ _ (0 : Fin 1) b

end Cert.KernelIdeal.Entry

end
-- ==== Proof.lean ====
/-
  The ranking loss  margin + ∑ₐ ∑_b ± cos(qₐ, d_b)  (+ where the two identifiers agree, - where they differ), computed
  two ways, is one extended real.

  Both programs normalize the query rows and the database rows on the host by the same operations.  The reference then
  forms all 4096 × 8192 similarities in one matrix product, multiplies each by a selected ±1, sums all the products
  from zero and adds the sum to the margin.  The kernel walks a 4 × 8 grid of 1024 × 1024 tiles: at each tile it forms the
  tile's similarities, selects between each similarity and zero minus it, sums the tile, and adds the total to a
  single-cell accumulator that restarts from zero at the first tile of each row of tiles; the accumulator is copied
  out at the last tile of the row; the host adds the four row sums to zero and adds the margin.

  Over the extended reals a format change is the identity, `s · (±1)` is `s` or `0 - s`, and addition is commutative
  and associative, so regrouping the pairs by tiles changes nothing: both results are `RankLoss.loss` of the same
  normalized arrays and identifiers.  No finiteness is used: the precondition is never opened.  The ideal pass rewrote
  nothing, so `preserves` is `True`.  The two kernel frames are the generated ones; the reference's frame is its
  generated run with the result dropped.
-/
import proofs.«172094_j23184233464204_2_alg».proof.Defs
import proofs.«172094_j23184233464204_2_alg».proof.Proof.Gen.Kernel
import proofs.«172094_j23184233464204_2_alg».proof.Proof.Gen.Kernel.Skeleton
import proofs.«172094_j23184233464204_2_alg».proof.Proof.Gen.Kernel.Launch
import proofs.«172094_j23184233464204_2_alg».proof.Proof.Gen.Kernel.Points
import proofs.«172094_j23184233464204_2_alg».proof.Proof.Gen.Kernel.Frame
import proofs.«172094_j23184233464204_2_alg».proof.Proof.Gen.KernelIdeal
import proofs.«172094_j23184233464204_2_alg».proof.Proof.Gen.KernelIdeal.Skeleton
import proofs.«172094_j23184233464204_2_alg».proof.Proof.Gen.KernelIdeal.Launch
import proofs.«172094_j23184233464204_2_alg».proof.Proof.Gen.KernelIdeal.Points
import proofs.«172094_j23184233464204_2_alg».proof.Proof.Gen.KernelIdeal.Frame
import proofs.«172094_j23184233464204_2_alg».proof.Proof.Gen.ReferenceIdeal
import proofs.«172094_j23184233464204_2_alg».proof.Proof.Gen.ReferenceIdeal.Run
import proofs.«172094_j23184233464204_2_alg».proof.Proof.Gen.ReferenceIdeal.Read
import proofs.«172094_j23184233464204_2_alg».proof.Proof.Gen.Pre_finite_inputs
import proofs.«172094_j23184233464204_2_alg».proof.Proof.Final
import proofs.«172094_j23184233464204_2_alg».proof.Proof.RefLoss
import proofs.«172094_j23184233464204_2_alg».proof.Proof.Entry
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The arrays the kernel's region finds are the reference's normalized arrays, and its identifier column and row
    hold the identifiers: so the two losses are one. -/
theorem loss_eq (m : (ℓ : Loc Cert.KernelIdeal.nD Cert.KernelIdeal.τ Cert.KernelIdeal.sig) → Buf (Elt Ideal) ℓ)
    (c : Dev Cert.KernelIdeal.nD) :
    Cert.RankLoss.loss
        (Cert.ReferenceIdeal.Read.val_main_v7 (F := Ideal) (m ((c.tc : Thread Cert.KernelIdeal.nD Cert.KernelIdeal.τ).loc Cert.KernelIdeal.main_arg0)))
        (Cert.ReferenceIdeal.Read.val_main_v16 (F := Ideal) (m ((c.tc : Thread Cert.KernelIdeal.nD Cert.KernelIdeal.τ).loc Cert.KernelIdeal.main_arg1)))
        (fun a => (m ((c.tc : Thread Cert.KernelIdeal.nD Cert.KernelIdeal.τ).loc Cert.KernelIdeal.main_arg2) : Cert.KernelIdeal.S4096.Idx → BitVec 32) (ix1 a))
        (fun b => (m ((c.tc : Thread Cert.KernelIdeal.nD Cert.KernelIdeal.τ).loc Cert.KernelIdeal.main_arg3) : Cert.KernelIdeal.S8192.Idx → BitVec 32) (ix1 b))
      = Cert.RankLoss.loss (Cert.KernelIdeal.Blocks.arrQ m c) (Cert.KernelIdeal.Blocks.arrD m c)
          (Cert.KernelIdeal.Blocks.idQ m c) (Cert.KernelIdeal.Blocks.idD m c) := by
  rw [Cert.KernelIdeal.Entry.entry_q m c, Cert.KernelIdeal.Entry.entry_d m c,
    show Cert.KernelIdeal.Blocks.idQ m c = _ from funext (Cert.KernelIdeal.Entry.entry_qid m c),
    show Cert.KernelIdeal.Blocks.idD m c = _ from funext (Cert.KernelIdeal.Entry.entry_did m c)]

/-- At the ideal instance both programs end at the loss of the same normalized arrays and identifiers. -/
theorem algebraic : Cert.algebraic_KernelIdeal_ReferenceIdeal := by
  intro m ρ m' ρ' _ hagree
  refine ⟨fun c => fun _ => Cert.RankLoss.loss (Cert.KernelIdeal.Blocks.arrQ m c) (Cert.KernelIdeal.Blocks.arrD m c)
      (Cert.KernelIdeal.Blocks.idQ m c) (Cert.KernelIdeal.Blocks.idD m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefLoss.result_eq,
    (hagree c).1, (hagree c).2.1, (hagree c).2.2.1, (hagree c).2.2.2]
  exact funext fun _ => loss_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
